-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x8 : Shape := ⟨2, ![4194304, 8]⟩
abbrev S4194304x4 : Shape := ⟨2, ![4194304, 4]⟩
abbrev S_ : Shape := ⟨0, ![]⟩

class Facts : Prop where
  bcast_S_S4194304x8 : S_.BroadcastsInDim S4194304x8 (![] : Fin 0 → Fin S4194304x8.rank)
  reducesTo_S4194304x8_S_d0_1 : S4194304x8.ReducesTo [0, 1] S_
  h_S_ : 0 < S_.numel
  bcast_S_S4194304x4 : S_.BroadcastsInDim S4194304x4 (![] : Fin 0 → Fin S4194304x4.rank)
  reducesTo_S4194304x4_S_d0_1 : S4194304x4.ReducesTo [0, 1] S_

variable [Facts]

def fn {F : FTy → Type} [FloatOps F] (main_arg0 : FVec F S4194304x8 .f32) (main_arg1 : FVec F S4194304x4 .f32) : IVec S_ 1 :=
  let main_v0 : FVec F S4194304x8 .f32 := Host.absf main_arg0
  let main_cst : FVec F S_ .f32 := constant S_ .f32 0x7F800000#32
  let main_v1 : FVec F S4194304x8 .f32 := broadcastInDim S4194304x8 ![] bcast_S_S4194304x8 main_cst
  let main_v2 : IVec S4194304x8 1 := cmpf .olt main_v0 main_v1
  let main_c : IVec S_ 1 := constantI S_ 1 1#1
  let main_v3 : IVec S_ 1 := (fun x v => Host.reduce IntOp.andi x v reducesTo_S4194304x8_S_d0_1 h_S_) main_v2 main_c
  let main_v4 : FVec F S4194304x4 .f32 := Host.absf main_arg1
  let main_cst_0 : FVec F S_ .f32 := constant S_ .f32 0x7F800000#32
  let main_v5 : FVec F S4194304x4 .f32 := broadcastInDim S4194304x4 ![] bcast_S_S4194304x4 main_cst_0
  let main_v6 : IVec S4194304x4 1 := cmpf .olt main_v4 main_v5
  let main_c_1 : IVec S_ 1 := constantI S_ 1 1#1
  let main_v7 : IVec S_ 1 := (fun x v => Host.reduce IntOp.andi x v reducesTo_S4194304x4_S_d0_1 h_S_) main_v6 main_c_1
  let main_v8 : IVec S_ 1 := andi main_v3 main_v7
  main_v8
-- ==== Kernel.lean ====
abbrev S4194304x8 : Shape := ⟨2, ![4194304, 8]⟩
abbrev S4194304x4 : Shape := ⟨2, ![4194304, 4]⟩
abbrev S8x4194304 : Shape := ⟨2, ![8, 4194304]⟩
abbrev S4x4194304 : Shape := ⟨2, ![4, 4194304]⟩
abbrev S8x65536 : Shape := ⟨2, ![8, 65536]⟩
abbrev S4x65536 : Shape := ⟨2, ![4, 65536]⟩
abbrev S1x65536 : Shape := ⟨2, ![1, 65536]⟩

abbrev nBuf : Space → Nat
  | .hbm => 6
  | .vmem => 6
  | .smem => 0
  | _ => 0

abbrev bufTy : (tb : Table) → Fin (tcTables nBuf tb) → BufTy
  | .hbm, ⟨0, _⟩ => ⟨S4194304x8, .f32⟩
  | .hbm, ⟨1, _⟩ => ⟨S4194304x4, .f32⟩
  | .hbm, ⟨2, _⟩ => ⟨S8x4194304, .f32⟩
  | .hbm, ⟨3, _⟩ => ⟨S4x4194304, .f32⟩
  | .hbm, ⟨4, _⟩ => ⟨S8x4194304, .f32⟩
  | .hbm, ⟨5, _⟩ => ⟨S4194304x8, .f32⟩
  | .local _ .vmem, ⟨0, _⟩ => ⟨S8x65536, .f32⟩
  | .local _ .vmem, ⟨1, _⟩ => ⟨S8x65536, .f32⟩
  | .local _ .vmem, ⟨2, _⟩ => ⟨S4x65536, .f32⟩
  | .local _ .vmem, ⟨3, _⟩ => ⟨S4x65536, .f32⟩
  | .local _ .vmem, ⟨4, _⟩ => ⟨S8x65536, .f32⟩
  | .local _ .vmem, ⟨5, _⟩ => ⟨S8x65536, .f32⟩
  | _, _ => ⟨S4194304x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S4194304x8_S8x4194304_1_0 : S4194304x8.Transposes [1, 0] S8x4194304
  transposes_S4194304x4_S4x4194304_1_0 : S4194304x4.Transposes [1, 0] S4x4194304
  inb_S8x65536_S8x65536_0_0 : ∀ a, (![0, 0] : Fin 2 → Nat) a + S8x65536.size a ≤ S8x65536.size a
  h_S8x65536 : 0 < S8x65536.numel
  shapeCasts_S8x65536_S8x65536 : S8x65536.ShapeCasts S8x65536
  inb_S4x65536_S4x65536_0_0 : ∀ a, (![0, 0] : Fin 2 → Nat) a + S4x65536.size a ≤ S4x65536.size a
  h_S4x65536 : 0 < S4x65536.numel
  shapeCasts_S4x65536_S4x65536 : S4x65536.ShapeCasts S4x65536
  slices_S4x65536_o3_0_S1x65536 : S4x65536.Slices ![3, 0] S1x65536
  slices_S4x65536_o2_0_S1x65536 : S4x65536.Slices ![2, 0] S1x65536
  slices_S4x65536_o1_0_S1x65536 : S4x65536.Slices ![1, 0] S1x65536
  slices_S4x65536_o0_0_S1x65536 : S4x65536.Slices ![0, 0] S1x65536
  rotates_S8x65536_d0 : S8x65536.Rotates 0 none
  iota_S8x65536_d0_w32 : S8x65536.Iotas .tc 32 [0]
  broadcasts_S1x65536_S8x65536 : S1x65536.Broadcasts S8x65536
  transposes_S8x4194304_S4194304x8_1_0 : S8x4194304.Transposes [1, 0] S4194304x8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x65536.size a ≤ S8x4194304.size a
  hwx0_0 : ∀ i : grid0.Coords, EltTy.bits .f32 = 32 ∨ (Rect.block (s := S8x4194304) S8x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x65536.size a ≤ S4x4194304.size a
  hwx0_1 : ∀ i : grid0.Coords, EltTy.bits .f32 = 32 ∨ (Rect.block (s := S4x4194304) S4x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x65536.size a ≤ S8x4194304.size a
  hwx0_2 : ∀ i : grid0.Coords, EltTy.bits .f32 = 32 ∨ (Rect.block (s := S8x4194304) S8x65536.size (cc0_transform_2 i) (hinb0_2 i)).WholeWords (EltTy.packing .f32)

variable [Facts₀]

abbrev win0_0 : Pipeline.Window sig grid0 :=
  Pipeline.Window.ofSpec (Memref.whole main_v0) S8x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x65536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4194304x8 : Shape := ⟨2, ![4194304, 8]⟩
abbrev S4194304x4 : Shape := ⟨2, ![4194304, 4]⟩
abbrev S4194304x1 : Shape := ⟨2, ![4194304, 1]⟩
abbrev S_ : Shape := ⟨0, ![]⟩
abbrev S4194304x7 : Shape := ⟨2, ![4194304, 7]⟩
abbrev S4194304x2 : Shape := ⟨2, ![4194304, 2]⟩
abbrev S4194304x6 : Shape := ⟨2, ![4194304, 6]⟩

abbrev nBuf : Space → Nat
  | .hbm => 52
  | .vmem => 0
  | .smem => 0
  | _ => 0

abbrev bufTy : (tb : Table) → Fin (tcTables nBuf tb) → BufTy
  | .hbm, ⟨0, _⟩ => ⟨S4194304x8, .f32⟩
  | .hbm, ⟨1, _⟩ => ⟨S4194304x4, .f32⟩
  | .hbm, ⟨2, _⟩ => ⟨S4194304x1, .f32⟩
  | .hbm, ⟨3, _⟩ => ⟨S4194304x1, .f32⟩
  | .hbm, ⟨4, _⟩ => ⟨S4194304x1, .f32⟩
  | .hbm, ⟨5, _⟩ => ⟨S4194304x1, .f32⟩
  | .hbm, ⟨6, _⟩ => ⟨S_, .f32⟩
  | .hbm, ⟨7, _⟩ => ⟨S4194304x1, .f32⟩
  | .hbm, ⟨8, _⟩ => ⟨S4194304x7, .f32⟩
  | .hbm, ⟨9, _⟩ => ⟨S4194304x8, .f32⟩
  | .hbm, ⟨10, _⟩ => ⟨S4194304x8, .f32⟩
  | .hbm, ⟨11, _⟩ => ⟨S4194304x8, .f32⟩
  | .hbm, ⟨12, _⟩ => ⟨S_, .f32⟩
  | .hbm, ⟨13, _⟩ => ⟨S4194304x1, .f32⟩
  | .hbm, ⟨14, _⟩ => ⟨S4194304x1, .f32⟩
  | .hbm, ⟨15, _⟩ => ⟨S4194304x8, .f32⟩
  | .hbm, ⟨16, _⟩ => ⟨S4194304x8, .f32⟩
  | .hbm, ⟨17, _⟩ => ⟨S4194304x8, .f32⟩
  | .hbm, ⟨18, _⟩ => ⟨S_, .f32⟩
  | .hbm, ⟨19, _⟩ => ⟨S4194304x2, .f32⟩
  | .hbm, ⟨20, _⟩ => ⟨S4194304x6, .f32⟩
  | .hbm, ⟨21, _⟩ => ⟨S4194304x8, .f32⟩
  | .hbm, ⟨22, _⟩ => ⟨S4194304x8, .f32⟩
  | .hbm, ⟨23, _⟩ => ⟨S4194304x8, .f32⟩
  | .hbm, ⟨24, _⟩ => ⟨S_, .f32⟩
  | .hbm, ⟨25, _⟩ => ⟨S4194304x1, .f32⟩
  | .hbm, ⟨26, _⟩ => ⟨S4194304x1, .f32⟩
  | .hbm, ⟨27, _⟩ => ⟨S4194304x8, .f32⟩
  | .hbm, ⟨28, _⟩ => ⟨S4194304x8, .f32⟩
  | .hbm, ⟨29, _⟩ => ⟨S4194304x8, .f32⟩
  | .hbm, ⟨30, _⟩ => ⟨S_, .f32⟩
  | .hbm, ⟨31, _⟩ => ⟨S4194304x4, .f32⟩
  | .hbm, ⟨32, _⟩ => ⟨S4194304x4, .f32⟩
  | .hbm, ⟨33, _⟩ => ⟨S4194304x8, .f32⟩
  | .hbm, ⟨34, _⟩ => ⟨S4194304x8, .f32⟩
  | .hbm, ⟨35, _⟩ => ⟨S4194304x8, .f32⟩
  | .hbm, ⟨36, _⟩ => ⟨S_, .f32⟩
  | .hbm, ⟨37, _⟩ => ⟨S4194304x1, .f32⟩
  | .hbm, ⟨38, _⟩ => ⟨S4194304x1, .f32⟩
  | .hbm, ⟨39, _⟩ => ⟨S4194304x8, .f32⟩
  | .hbm, ⟨40, _⟩ => ⟨S4194304x8, .f32⟩
  | .hbm, ⟨41, _⟩ => ⟨S4194304x8, .f32⟩
  | .hbm, ⟨42, _⟩ => ⟨S_, .f32⟩
  | .hbm, ⟨43, _⟩ => ⟨S4194304x8, .f32⟩
  | .hbm, ⟨44, _⟩ => ⟨S4194304x8, .f32⟩
  | .hbm, ⟨45, _⟩ => ⟨S4194304x8, .f32⟩
  | .hbm, ⟨46, _⟩ => ⟨S_, .f32⟩
  | .hbm, ⟨47, _⟩ => ⟨S4194304x1, .f32⟩
  | .hbm, ⟨48, _⟩ => ⟨S4194304x1, .f32⟩
  | .hbm, ⟨49, _⟩ => ⟨S4194304x8, .f32⟩
  | .hbm, ⟨50, _⟩ => ⟨S4194304x8, .f32⟩
  | .hbm, ⟨51, _⟩ => ⟨S4194304x8, .f32⟩
  | _, _ => ⟨S4194304x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_5 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_6 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]

class Facts₀ : Prop where
  slices_S4194304x4_S4194304x1_0_3 : S4194304x4.Slices ![0, 3] S4194304x1
  slices_S4194304x4_S4194304x1_0_2 : S4194304x4.Slices ![0, 2] S4194304x1
  slices_S4194304x4_S4194304x1_0_1 : S4194304x4.Slices ![0, 1] S4194304x1
  slices_S4194304x4_S4194304x1_0_0 : S4194304x4.Slices ![0, 0] S4194304x1
  bcast_S_S4194304x1 : S_.BroadcastsInDim S4194304x1 (![] : Fin 0 → Fin S4194304x1.rank)
  slices_S4194304x8_S4194304x7_0_0 : S4194304x8.Slices ![0, 0] S4194304x7
  concatenates_S4194304x1_S4194304x7_S4194304x8_d1 : Shape.Concatenates [S4194304x1, S4194304x7] S4194304x8 1
  bcast_S4194304x1_S4194304x8_0_1 : S4194304x1.BroadcastsInDim S4194304x8 (![0, 1] : Fin 2 → Fin S4194304x8.rank)
  bcast_S_S4194304x2 : S_.BroadcastsInDim S4194304x2 (![] : Fin 0 → Fin S4194304x2.rank)
  slices_S4194304x8_S4194304x6_0_0 : S4194304x8.Slices ![0, 0] S4194304x6
  concatenates_S4194304x2_S4194304x6_S4194304x8_d1 : Shape.Concatenates [S4194304x2, S4194304x6] S4194304x8 1
  bcast_S_S4194304x4 : S_.BroadcastsInDim S4194304x4 (![] : Fin 0 → Fin S4194304x4.rank)
  slices_S4194304x8_S4194304x4_0_0 : S4194304x8.Slices ![0, 0] S4194304x4
  concatenates_S4194304x4_S4194304x4_S4194304x8_d1 : Shape.Concatenates [S4194304x4, S4194304x4] S4194304x8 1
  bcast_S_S4194304x8 : S_.BroadcastsInDim S4194304x8 (![] : Fin 0 → Fin S4194304x8.rank)

variable [Facts₀]

class Facts : Prop extends Facts₀ where

variable [Facts]
-- ==== Proof.LibShiftRows.lean ====
/-
  A zero-filling shift of a matrix along one axis, read at an entry, over arbitrary extents and any element type.

  `shifted k z x` moves the entries of a row `x` of `W` positions `k` places toward the higher positions and puts `z` in
  the `k` vacated low positions: position `r` holds `x (r - k)` when `k ≤ r` and `z` otherwise.

  Two spellings of that one function are read here at an entry:

  * the vector unit's, on an `[R, T]` array shifted along its ROWS (axis 0): a cyclic rotation by `k` along axis 0, of which
    the `k` wrapped-around rows are replaced by a splat of `z` through a select on `row index ≥ k` (a signed comparison of
    32-bit words, the row index an iota along axis 0): `rotate_select_apply`;

  * the host's, on an `[N, W]` array shifted along its COLUMNS (axis 1): the concatenation along axis 1 of an `[N, k]`
    block whose every entry is `z` with the first `W - k` columns of the array: `concat_fill_slice_apply`.

  `cmpi_sge_ofNat`: on naturals below `2 ^ 31` the signed `≥` of their 32-bit words is the naturals' `≥`.
-/
import Idealize.ShloMosaic.Lib.ValueIdx
import Idealize.ShloMosaic.Lib.ValueLayout
import Idealize.ShloMosaic.Lib.Pipeline.Value

namespace ShiftRows

open Idealize.ShloMosaic Idealize.ShloMosaic.ValueIdx

variable {α : Type}

/-- A row of `W` entries moved `k` places toward the higher positions, the `k` vacated low positions holding `z`. -/
def shifted {W : Nat} (k : Nat) (z : α) (x : Fin W → α) (r : Fin W) : α :=
  if h : k ≤ r.val then x ⟨r.val - k, by have := r.isLt; omega⟩ else z

theorem shifted_of_le {W : Nat} (k : Nat) (z : α) (x : Fin W → α) (r : Fin W) (h : k ≤ r.val) :
    shifted k z x r = x ⟨r.val - k, by have := r.isLt; omega⟩ := dif_pos h

theorem shifted_of_lt {W : Nat} (k : Nat) (z : α) (x : Fin W → α) (r : Fin W) (h : r.val < k) :
    shifted k z x r = z := dif_neg (by omega)

/-- The shift of a row depends on the row's entries only. -/
theorem shifted_congr {W : Nat} (k : Nat) (z : α) {x y : Fin W → α} (h : ∀ r, x r = y r) (r : Fin W) :
    shifted k z x r = shifted k z y r := by
  unfold shifted; split
  · exact h _
  · rfl

/-- The 32-bit word of a natural below `2 ^ 31`, read signed, is that natural. -/
theorem toInt_ofNat_of_lt {n : Nat} (h : n < 2 ^ 31) : (BitVec.ofNat 32 n).toInt = (n : Int) := by
  have h1 : (BitVec.ofNat 32 n).toNat = n := by
    rw [BitVec.toNat_ofNat]; exact Nat.mod_eq_of_lt (by omega)
  rw [BitVec.toInt_eq_toNat_of_lt (by rw [h1]; omega), h1]

/-- On naturals below `2 ^ 31` the signed `≥` of the 32-bit words is the naturals' `≥`. -/
theorem cmpi_sge_ofNat {r k : Nat} (hr : r < 2 ^ 31) (hk : k < 2 ^ 31) :
    IntOp.cmpi .sge (BitVec.ofNat 32 r) (BitVec.ofNat 32 k) = if k ≤ r then 1#1 else 0#1 := by
  show BitVec.ofBool ((BitVec.ofNat 32 k).sle (BitVec.ofNat 32 r)) = _
  unfold BitVec.sle
  rw [toInt_ofNat_of_lt hr, toInt_ofNat_of_lt hk]
  by_cases h : k ≤ r
  · rw [if_pos h, decide_eq_true (by exact_mod_cast h)]; rfl
  · rw [if_neg h, decide_eq_false (by intro h'; exact h (by exact_mod_cast h'))]; rfl

/-- THE VECTOR UNIT'S SPELLING. An `[R, T]` array rotated cyclically by `k` along its rows, the rows below `k` replaced by a
    splat of `z` (a select on `row index ≥ k`), reads at `(r, q)` the column `q` shifted by `k` with fill `z`, at `r`. -/
theorem rotate_select_apply {R T : Nat} (k : Nat) (hk : k < R) (hR : R ≤ 2 ^ 31)
    (x : (⟨2, ![R, T]⟩ : Shape).Idx → α) (z : α)
    (hrot : (⟨2, ![R, T]⟩ : Shape).Rotates 0 none) (hio : (⟨2, ![R, T]⟩ : Shape).Iotas .tc 32 [0])
    (r : Fin R) (q : Fin T) :
    select (cmpi .sge (iota .tc ⟨2, ![R, T]⟩ 32 [0] hio) (broadcast ⟨2, ![R, T]⟩ (BitVec.ofNat 32 k)))
        (dynamicRotate 0 (BitVec.ofNat 32 k) none x hrot) (broadcast ⟨2, ![R, T]⟩ z) (ix2 r q)
      = shifted k z (fun r' => x (ix2 r' q)) r := by
  have hr : r.val < R := r.isLt
  rw [select_apply]
  show Scalar.select (IntOp.cmpi .sge (iota .tc ⟨2, ![R, T]⟩ 32 [0] hio (ix2 r q)) (BitVec.ofNat 32 k)) _ z = _
  rw [iota_single_apply]
  show Scalar.select (IntOp.cmpi .sge (BitVec.ofNat 32 r.val) (BitVec.ofNat 32 k)) _ z = _
  rw [cmpi_sge_ofNat (by omega) (by omega)]
  by_cases h : k ≤ r.val
  · rw [if_pos h, select_one, shifted_of_le k z _ r h]
    unfold dynamicRotate
    refine congrArg x (funext fun b => ?_)
    match b with
    | ⟨0, _⟩ =>
      apply Fin.ext
      show (r.val + R - ((BitVec.ofNat 32 k).toNat + 0) % R) % R = r.val - k
      have hkn : (BitVec.ofNat 32 k).toNat = k := by
        rw [BitVec.toNat_ofNat]; exact Nat.mod_eq_of_lt (by omega)
      rw [hkn, Nat.add_zero, Nat.mod_eq_of_lt hk,
        show r.val + R - k = (r.val - k) + R by omega, Nat.add_mod_right, Nat.mod_eq_of_lt (by omega)]
    | ⟨1, _⟩ => rfl
  · rw [if_neg h, select_zero, shifted_of_lt k z _ r (by omega)]

/-- THE HOST'S SPELLING. An `[N, k]` block whose every entry is `z`, concatenated along the columns with the first `m`
    columns of an `[N, W]` array (`k + m = W`), reads at `(n, r)` the row `n` shifted by `k` with fill `z`, at `r`. -/
theorem concat_fill_slice_apply {N k m W : Nat} (hW : k + m = W)
    (zs : (⟨2, ![N, k]⟩ : Shape).Idx → α) (z : α) (hz : ∀ i, zs i = z)
    (y : (⟨2, ![N, W]⟩ : Shape).Idx → α)
    (hs : (⟨2, ![N, W]⟩ : Shape).Slices ![0, 0] ⟨2, ![N, m]⟩)
    (hc : Shape.Concatenates [(⟨2, ![N, k]⟩ : Shape), ⟨2, ![N, m]⟩] ⟨2, ![N, W]⟩ 1)
    (n : Fin N) (r : Fin W) :
    concatenate ⟨2, ![N, W]⟩ 1
        [⟨⟨2, ![N, k]⟩, zs⟩, ⟨⟨2, ![N, m]⟩, extractStridedSlice ⟨2, ![N, m]⟩ ![0, 0] y hs⟩] hc (ix2 n r)
      = shifted k z (fun r' => y (ix2 n r')) r := by
  have hr : r.val < W := r.isLt
  by_cases h : k ≤ r.val
  · rw [shifted_of_le k z _ r h]
    refine (concatenate_pair_apply_right (t := ⟨2, ![N, W]⟩) (s₁ := ⟨2, ![N, k]⟩) (s₂ := ⟨2, ![N, m]⟩) (1 : Fin 2) zs
      (extractStridedSlice ⟨2, ![N, m]⟩ ![0, 0] y hs) hc (ix2 n r) rfl rfl
      (ix2 n (⟨r.val - k, by omega⟩ : Fin m)) (fun b => ?_) ?_).trans ?_
    · match b with
      | ⟨0, _⟩ => exact fun _ => rfl
      | ⟨1, _⟩ => exact fun hne => absurd rfl hne
    · show (r.val - k) + k = r.val
      omega
    · exact slice2_axis1_apply 0 y hs n ⟨r.val - k, by omega⟩ ⟨r.val - k, by omega⟩ (by simp)
  · rw [shifted_of_lt k z _ r (by omega)]
    refine (concatenate_pair_apply_left (t := ⟨2, ![N, W]⟩) (s₁ := ⟨2, ![N, k]⟩) (s₂ := ⟨2, ![N, m]⟩) (1 : Fin 2) zs
      (extractStridedSlice ⟨2, ![N, m]⟩ ![0, 0] y hs) hc (ix2 n r) rfl
      (ix2 n (⟨r.val, by omega⟩ : Fin k)) (fun b => ?_)).trans (hz _)
    match b with
    | ⟨0, _⟩ => rfl
    | ⟨1, _⟩ => rfl

end ShiftRows
-- ==== Proof.Spec.lean ====
/-
  The barrel shifter as ONE function of its two arguments, entry by entry.

  A row of the data array holds 8 positions (position 0 the most significant), a row of the shift array 4 select
  values `s 0 … s 3` (`s 3` the least significant). A select `s` chooses between two values arithmetically,
  `mux s a b = s · a + (1 - s) · b`. The row goes through four stages: shifted by 1 place toward the higher positions
  under `s 3`, by 2 under `s 2`, by 4 under `s 1` (vacated positions zero), and replaced by zero under `s 0`.

  Everything is stated over any float instance `F`: the two programs compute the SAME tree of scalar operations at each
  entry — the same products and sums in the same order, with the same zero and one words — so no law of arithmetic is
  used, and none of the values needs to be finite.
-/
import Idealize.ShloMosaic.Lib.ValueIdx
import Idealize.ShloMosaic.Lib.ValueLayout
import proofs.«154739_j23407571764122_1_alg».proof.Proof.LibShiftRows

noncomputable section

namespace BarrelShift

open Idealize.ShloMosaic Idealize.ShloMosaic.ValueIdx ShiftRows

variable {F : FTy → Type} [FloatOps F]

/-- The word of `0.0`. -/
def zero : F .f32 := FloatOps.ofBits .f32 0x00000000#32
/-- The word of `1.0`. -/
def one : F .f32 := FloatOps.ofBits .f32 0x3F800000#32

/-- The arithmetic two-way choice `s · a + (1 - s) · b`. -/
def mux (s a b : F .f32) : F .f32 :=
  FloatOps.addf (FloatOps.mulf s a) (FloatOps.mulf (FloatOps.subf one s) b)

/-- One stage: under the select `s`, the row shifted by `k` places (zeros entering at the low positions) or the row
    itself. -/
def stage (k : Nat) (s : F .f32) (x : Fin 8 → F .f32) : Fin 8 → F .f32 :=
  fun r => mux s (shifted k zero x r) (x r)

/-- A stage depends on the row's entries only. -/
theorem stage_congr (k : Nat) (s : F .f32) {x y : Fin 8 → F .f32} (h : ∀ r, x r = y r) (r : Fin 8) :
    stage k s x r = stage k s y r := by
  unfold stage; rw [shifted_congr k zero h r, h r]

/-- The row after the three shifting stages (by 1 under `s 3`, by 2 under `s 2`, by 4 under `s 1`). -/
def shifts (s : Fin 4 → F .f32) (x : Fin 8 → F .f32) : Fin 8 → F .f32 :=
  stage 4 (s 1) (stage 2 (s 2) (stage 1 (s 3) x))

/-- The whole shifter on one row: the three shifting stages, then zero under `s 0`. -/
def barrel (s : Fin 4 → F .f32) (x : Fin 8 → F .f32) : Fin 8 → F .f32 :=
  fun r => mux (s 0) zero (shifts s x r)

/-- The result array `[N, 8]` of a data array `[N, 8]` and a shift array `[N, 4]`: row `n` is the shifter on row `n`. -/
def result {N : Nat} (X : (⟨2, ![N, 8]⟩ : Shape).Idx → F .f32) (S : (⟨2, ![N, 4]⟩ : Shape).Idx → F .f32) :
    (⟨2, ![N, 8]⟩ : Shape).Idx → F .f32 :=
  fun i => barrel (fun j => S (ix2 (i 0) j)) (fun r => X (ix2 (i 0) r)) (i 1)

theorem result_apply {N : Nat} (X : (⟨2, ![N, 8]⟩ : Shape).Idx → F .f32) (S : (⟨2, ![N, 4]⟩ : Shape).Idx → F .f32)
    (n : Fin N) (r : Fin 8) :
    result X S (ix2 n r) = barrel (fun j => S (ix2 n j)) (fun r' => X (ix2 n r')) r := rfl

/-- The same on the transposed layout: an `[8, N]` data array and a `[4, N]` shift array, COLUMN `q` the shifter's row. -/
def resultT {N : Nat} (X : (⟨2, ![8, N]⟩ : Shape).Idx → F .f32) (S : (⟨2, ![4, N]⟩ : Shape).Idx → F .f32) :
    (⟨2, ![8, N]⟩ : Shape).Idx → F .f32 :=
  fun i => barrel (fun j => S (ix2 j (i 1))) (fun r => X (ix2 r (i 1))) (i 0)

theorem resultT_apply {N : Nat} (X : (⟨2, ![8, N]⟩ : Shape).Idx → F .f32) (S : (⟨2, ![4, N]⟩ : Shape).Idx → F .f32)
    (r : Fin 8) (q : Fin N) :
    resultT X S (ix2 r q) = barrel (fun j => S (ix2 j q)) (fun r' => X (ix2 r' q)) r := rfl

/-- The two layouts agree: the column-layout shifter on the transposed data and select arrays, transposed back, is
    the row-layout shifter on the arrays themselves. -/
theorem transpose_resultT {N : Nat} (X : (⟨2, ![N, 8]⟩ : Shape).Idx → F .f32) (S : (⟨2, ![N, 4]⟩ : Shape).Idx → F .f32)
    (h0 : (⟨2, ![N, 8]⟩ : Shape).Transposes [1, 0] ⟨2, ![8, N]⟩) (h1 : (⟨2, ![N, 4]⟩ : Shape).Transposes [1, 0] ⟨2, ![4, N]⟩)
    (h2 : (⟨2, ![8, N]⟩ : Shape).Transposes [1, 0] ⟨2, ![N, 8]⟩) :
    transpose ⟨2, ![N, 8]⟩ [1, 0]
        (resultT (transpose ⟨2, ![8, N]⟩ [1, 0] X h0) (transpose ⟨2, ![4, N]⟩ [1, 0] S h1)) h2
      = result X S := by
  funext i
  obtain ⟨n, r, rfl⟩ : ∃ (n : Fin N) (r : Fin 8), i = ix2 n r := ⟨i 0, i 1, eq_ix2 i⟩
  rw [transpose_ix2_apply, resultT_apply, result_apply]
  exact congrArg₂ (fun s x => barrel s x r) (funext fun j => transpose_ix2_apply S h1 j n)
    (funext fun r' => transpose_ix2_apply X h0 r' n)

end BarrelShift

end
-- ==== Proof.ReferenceRows.lean ====
/-
  The reference's result array is the barrel shifter applied to each row.

  The reference works on the arrays as given, `[N, 8]` data and `[N, 4]` selects, one row per item. Each select is a
  one-column slice of the shift array broadcast along the row; a shift by `k` is the concatenation, along the row, of `k`
  columns of zeros with the row's first `8 - k` columns. Read at an entry `(n, r)`, every stage is the stage of
  `BarrelShift` on row `n`: the same products and sums, operand for operand.
-/
import proofs.«154739_j23407571764122_1_alg».proof.Proof.Gen.ReferenceIdeal.Read
import proofs.«154739_j23407571764122_1_alg».proof.Proof.Spec

noncomputable section

namespace Cert.ReferenceIdeal.Rows

open Cert.ReferenceIdeal Cert.ReferenceIdeal.Gen Cert.ReferenceIdeal.Read
open Idealize.ShloMosaic Idealize.ShloMosaic.ValueIdx BarrelShift ShiftRows

variable {F : FTy → Type} [FloatOps F]
variable (x0 : (⟨S4194304x8, .f32⟩ : BufTy).Contents (Elt F)) (x1 : (⟨S4194304x4, .f32⟩ : BufTy).Contents (Elt F))
variable (n : Fin 4194304) (r : Fin 8)

/-! ## The selects: column `c` of the shift array, the same along the whole row -/

theorem sel3 : val_main_v7 (F := F) x1 (ix2 n r) = x1 (ix2 n (3 : Fin 4)) := by
  rw [val_main_v7_apply, val_main_v0_apply]
  exact congrArg x1 (funext fun a => by match a with | ⟨0, _⟩ => rfl | ⟨1, _⟩ => rfl)

theorem nsel3 : val_main_v11 (F := F) x1 (ix2 n r) = FloatOps.subf one (x1 (ix2 n (3 : Fin 4))) := by
  rw [val_main_v11_apply, val_main_v10_apply, val_main_v9_apply, val_main_cst_0_apply, val_main_v0_apply]
  exact congrArg (FloatOps.subf one) (congrArg x1 (funext fun a => by match a with | ⟨0, _⟩ => rfl | ⟨1, _⟩ => rfl))

theorem sel2 : val_main_v17 (F := F) x1 (ix2 n r) = x1 (ix2 n (2 : Fin 4)) := by
  rw [val_main_v17_apply, val_main_v1_apply]
  exact congrArg x1 (funext fun a => by match a with | ⟨0, _⟩ => rfl | ⟨1, _⟩ => rfl)

theorem nsel2 : val_main_v21 (F := F) x1 (ix2 n r) = FloatOps.subf one (x1 (ix2 n (2 : Fin 4))) := by
  rw [val_main_v21_apply, val_main_v20_apply, val_main_v19_apply, val_main_cst_2_apply, val_main_v1_apply]
  exact congrArg (FloatOps.subf one) (congrArg x1 (funext fun a => by match a with | ⟨0, _⟩ => rfl | ⟨1, _⟩ => rfl))

theorem sel1 : val_main_v27 (F := F) x1 (ix2 n r) = x1 (ix2 n (1 : Fin 4)) := by
  rw [val_main_v27_apply, val_main_v2_apply]
  exact congrArg x1 (funext fun a => by match a with | ⟨0, _⟩ => rfl | ⟨1, _⟩ => rfl)

theorem nsel1 : val_main_v31 (F := F) x1 (ix2 n r) = FloatOps.subf one (x1 (ix2 n (1 : Fin 4))) := by
  rw [val_main_v31_apply, val_main_v30_apply, val_main_v29_apply, val_main_cst_4_apply, val_main_v2_apply]
  exact congrArg (FloatOps.subf one) (congrArg x1 (funext fun a => by match a with | ⟨0, _⟩ => rfl | ⟨1, _⟩ => rfl))

theorem sel0 : val_main_v35 (F := F) x1 (ix2 n r) = x1 (ix2 n (0 : Fin 4)) := by
  rw [val_main_v35_apply, val_main_v3_apply]
  exact congrArg x1 (funext fun a => by match a with | ⟨0, _⟩ => rfl | ⟨1, _⟩ => rfl)

theorem nsel0 : val_main_v39 (F := F) x1 (ix2 n r) = FloatOps.subf one (x1 (ix2 n (0 : Fin 4))) := by
  rw [val_main_v39_apply, val_main_v38_apply, val_main_v37_apply, val_main_cst_6_apply, val_main_v3_apply]
  exact congrArg (FloatOps.subf one) (congrArg x1 (funext fun a => by match a with | ⟨0, _⟩ => rfl | ⟨1, _⟩ => rfl))

/-! ## The blocks of zeros -/

theorem zeros1 (i : S4194304x1.Idx) : val_main_v4 (F := F) i = zero := by
  rw [val_main_v4_apply, val_main_cst_apply]; rfl
theorem zeros2 (i : S4194304x2.Idx) : val_main_v14 (F := F) i = zero := by
  rw [val_main_v14_apply, val_main_cst_1_apply]; rfl
theorem zeros4 (i : S4194304x4.Idx) : val_main_v24 (F := F) i = zero := by
  rw [val_main_v24_apply, val_main_cst_3_apply]; rfl
theorem zeros8 (i : S4194304x8.Idx) : val_main_v34 (F := F) i = zero := by
  rw [val_main_v34_apply, val_main_cst_5_apply]; rfl

/-! ## The three shifting stages -/

/-- Zeros in column 0, then columns 0–6 of the data: the row shifted by 1. -/
theorem shift1 : val_main_v6 (F := F) x0 (ix2 n r) = shifted 1 zero (fun r' => x0 (ix2 n r')) r := by
  unfold val_main_v6 val_main_v5
  exact concat_fill_slice_apply (k := 1) (m := 7) rfl (val_main_v4 (F := F)) zero zeros1 x0 _ _ n r

theorem stage1 : val_main_v13 (F := F) x0 x1 (ix2 n r) = stage 1 (x1 (ix2 n (3 : Fin 4))) (fun r' => x0 (ix2 n r')) r := by
  rw [val_main_v13_apply, val_main_v8_apply, val_main_v12_apply, sel3, nsel3, shift1]
  rfl

/-- Zeros in columns 0–1, then columns 0–5 of the first stage: its row shifted by 2. -/
theorem shift2 : val_main_v16 (F := F) x0 x1 (ix2 n r)
    = shifted 2 zero (fun r' => val_main_v13 (F := F) x0 x1 (ix2 n r')) r := by
  unfold val_main_v16 val_main_v15
  exact concat_fill_slice_apply (k := 2) (m := 6) rfl (val_main_v14 (F := F)) zero zeros2 (val_main_v13 (F := F) x0 x1) _ _ n r

theorem stage2 : val_main_v23 (F := F) x0 x1 (ix2 n r)
    = stage 2 (x1 (ix2 n (2 : Fin 4))) (stage 1 (x1 (ix2 n (3 : Fin 4))) (fun r' => x0 (ix2 n r'))) r := by
  rw [val_main_v23_apply, val_main_v18_apply, val_main_v22_apply, sel2, nsel2, shift2]
  exact stage_congr 2 _ (fun r' => stage1 x0 x1 n r') r

/-- Zeros in columns 0–3, then columns 0–3 of the second stage: its row shifted by 4. -/
theorem shift4 : val_main_v26 (F := F) x0 x1 (ix2 n r)
    = shifted 4 zero (fun r' => val_main_v23 (F := F) x0 x1 (ix2 n r')) r := by
  unfold val_main_v26 val_main_v25
  exact concat_fill_slice_apply (k := 4) (m := 4) rfl (val_main_v24 (F := F)) zero zeros4 (val_main_v23 (F := F) x0 x1) _ _ n r

theorem stage4 : val_main_v33 (F := F) x0 x1 (ix2 n r)
    = shifts (fun j => x1 (ix2 n j)) (fun r' => x0 (ix2 n r')) r := by
  rw [val_main_v33_apply, val_main_v28_apply, val_main_v32_apply, sel1, nsel1, shift4]
  exact stage_congr 4 _ (fun r' => stage2 x0 x1 n r') r

/-! ## The whole reference -/

/-- The reference's last stage, at `(n, r)`, is the shifter on row `n` at position `r`. -/
theorem out_apply : val_main_v41 (F := F) x0 x1 (ix2 n r)
    = barrel (fun j => x1 (ix2 n j)) (fun r' => x0 (ix2 n r')) r := by
  rw [val_main_v41_apply, val_main_v36_apply, val_main_v40_apply, sel0, nsel0, zeros8, stage4]
  rfl

/-- The reference's result array is `BarrelShift.result` of its two arguments. -/
theorem out_eq : val_main_v41 (F := F) x0 x1 = result x0 x1 := by
  funext i
  obtain ⟨n, r, rfl⟩ : ∃ (n : Fin 4194304) (r : Fin 8), i = ix2 n r := ⟨i 0, i 1, eq_ix2 i⟩
  exact out_apply x0 x1 n r

end Cert.ReferenceIdeal.Rows

end
-- ==== Proof.KernelColumns.lean ====
/-
  What the kernel's body leaves in its output block is the barrel shifter applied to each COLUMN of the input blocks.

  The kernel works on the transposed layout: a block of the data is `[8, T]` (the 8 positions down the rows, one item
  per column), a block of the selects `[4, T]`. A select is one ROW of the select block broadcast down the rows; a
  shift by `k` is a cyclic rotation of the rows by `k` whose `k` wrapped-around rows are replaced by zero through a
  select on `row index ≥ k`. The body's one store is, read at an entry `(r, q)`, `BarrelShift.barrel` of column `q` of
  the two blocks at position `r`: the same products and sums, operand for operand.
-/
import proofs.«154739_j23407571764122_1_alg».proof.Proof.Gen.KernelIdeal.Frame
import proofs.«154739_j23407571764122_1_alg».proof.Proof.Spec
import Idealize.ShloMosaic.Lib.Pipeline.Value
import Idealize.ShloMosaic.Lib.ValueLayout

noncomputable section

namespace Cert.KernelIdeal.Columns

open Cert.KernelIdeal Cert.KernelIdeal.Gen
open Idealize.ShloMosaic Idealize.ShloMosaic.ValueIdx BarrelShift ShiftRows

variable {F : FTy → Type} [FloatOps F]

/-! ## The body's vocabulary -/

/-- Row `c` of the select block, as a `[1, T]` array. -/
def selRow (c : Nat) (h : S4x65536.Slices ![c, 0] S1x65536) (x1 : Vec F S4x65536 .f32) : FVec F S1x65536 .f32 :=
  extractStridedSlice S1x65536 ![c, 0] (shapeCast S4x65536 x1 shapeCasts_S4x65536_S4x65536) h

/-- One shifting stage on an `[8, T]` block under the select row `s`: `s · shift_k x + (1 - s) · x`, the shift a rotation of
    the rows with the wrapped-around rows zeroed. -/
def stageArr (k : Nat) (s : FVec F S1x65536 .f32) (x : FVec F S8x65536 .f32) : FVec F S8x65536 .f32 :=
  addf
    (mulf (broadcastTo S8x65536 s broadcasts_S1x65536_S8x65536)
      (select (cmpi .sge (iota .tc S8x65536 32 [0] iota_S8x65536_d0_w32) (broadcast S8x65536 (BitVec.ofNat 32 k)))
        (dynamicRotate 0 (BitVec.ofNat 32 k) none x rotates_S8x65536_d0)
        (broadcast S8x65536 (FloatOps.ofBits .f32 0x00000000#32))))
    (mulf (broadcastTo S8x65536 (subf (broadcast S1x65536 (FloatOps.ofBits .f32 0x3F800000#32)) s) broadcasts_S1x65536_S8x65536) x)

/-- The last stage under the select row `s`: `s · 0 + (1 - s) · x`. -/
def finalArr (s : FVec F S1x65536 .f32) (x : FVec F S8x65536 .f32) : FVec F S8x65536 .f32 :=
  addf
    (mulf (broadcastTo S8x65536 s broadcasts_S1x65536_S8x65536) (broadcast S8x65536 (FloatOps.ofBits .f32 0x00000000#32)))
    (mulf (broadcastTo S8x65536 (subf (broadcast S1x65536 (FloatOps.ofBits .f32 0x3F800000#32)) s) broadcasts_S1x65536_S8x65536) x)

/-- The body's stored value, over that vocabulary: the three shifting stages under select rows 3, 2, 1 and the last
    stage under row 0 (the payloads unfold to exactly this tree). -/
theorem pay_eq (x0 : Vec F S8x65536 .f32) (x1 : Vec F S4x65536 .f32) :
    k0_pay1 (k0_pay3 x1) (k0_pay4 x1) (k0_pay5 x0 x1) (k0_pay6 x0 x1) (k0_pay7 (F := F))
      = finalArr (selRow 0 slices_S4x65536_o0_0_S1x65536 x1)
          (stageArr 4 (selRow 1 slices_S4x65536_o1_0_S1x65536 x1)
            (stageArr 2 (selRow 2 slices_S4x65536_o2_0_S1x65536 x1)
              (stageArr 1 (selRow 3 slices_S4x65536_o3_0_S1x65536 x1)
                (shapeCast S8x65536 x0 shapeCasts_S8x65536_S8x65536)))) := rfl

/-! ## The vocabulary read at an entry -/

variable (r : Fin 8) (q : Fin 65536)

/-- Row `c` of the select block at column `q`. -/
theorem selRow_apply (c : Fin 4) (h : S4x65536.Slices ![c.val, 0] S1x65536) (x1 : Vec F S4x65536 .f32) :
    selRow c.val h x1 (ix2 (0 : Fin 1) q) = x1 (ix2 c q) := by
  unfold selRow
  rw [shapeCast_self]
  exact slice2_axis0_apply c.val x1 h (0 : Fin 1) q c rfl

theorem selRow0_apply (x1 : Vec F S4x65536 .f32) :
    selRow 0 slices_S4x65536_o0_0_S1x65536 x1 (ix2 (0 : Fin 1) q) = x1 (ix2 (0 : Fin 4) q) :=
  selRow_apply q (0 : Fin 4) slices_S4x65536_o0_0_S1x65536 x1
theorem selRow1_apply (x1 : Vec F S4x65536 .f32) :
    selRow 1 slices_S4x65536_o1_0_S1x65536 x1 (ix2 (0 : Fin 1) q) = x1 (ix2 (1 : Fin 4) q) :=
  selRow_apply q (1 : Fin 4) slices_S4x65536_o1_0_S1x65536 x1
theorem selRow2_apply (x1 : Vec F S4x65536 .f32) :
    selRow 2 slices_S4x65536_o2_0_S1x65536 x1 (ix2 (0 : Fin 1) q) = x1 (ix2 (2 : Fin 4) q) :=
  selRow_apply q (2 : Fin 4) slices_S4x65536_o2_0_S1x65536 x1
theorem selRow3_apply (x1 : Vec F S4x65536 .f32) :
    selRow 3 slices_S4x65536_o3_0_S1x65536 x1 (ix2 (0 : Fin 1) q) = x1 (ix2 (3 : Fin 4) q) :=
  selRow_apply q (3 : Fin 4) slices_S4x65536_o3_0_S1x65536 x1

/-- A shifting stage at `(r, q)` is the row stage on column `q`. -/
theorem stageArr_apply (k : Nat) (hk : k < 8) (s : FVec F S1x65536 .f32) (x : FVec F S8x65536 .f32) :
    stageArr k s x (ix2 r q) = stage k (s (ix2 (0 : Fin 1) q)) (fun r' => x (ix2 r' q)) r := by
  show FloatOps.addf
      (FloatOps.mulf (broadcastTo S8x65536 s broadcasts_S1x65536_S8x65536 (ix2 r q))
        (select (cmpi .sge (iota .tc S8x65536 32 [0] iota_S8x65536_d0_w32) (broadcast S8x65536 (BitVec.ofNat 32 k)))
          (dynamicRotate 0 (BitVec.ofNat 32 k) none x rotates_S8x65536_d0)
          (broadcast S8x65536 (FloatOps.ofBits .f32 0x00000000#32)) (ix2 r q)))
      (FloatOps.mulf (broadcastTo S8x65536 (subf (broadcast S1x65536 (FloatOps.ofBits .f32 0x3F800000#32)) s) broadcasts_S1x65536_S8x65536 (ix2 r q))
        (x (ix2 r q))) = _
  rw [broadcastTo_1b_ab_apply, broadcastTo_1b_ab_apply,
    rotate_select_apply k hk (by norm_num) x (FloatOps.ofBits .f32 0x00000000#32) rotates_S8x65536_d0 iota_S8x65536_d0_w32 r q]
  rfl

/-- The last stage at `(r, q)`. -/
theorem finalArr_apply (s : FVec F S1x65536 .f32) (x : FVec F S8x65536 .f32) :
    finalArr s x (ix2 r q) = mux (s (ix2 (0 : Fin 1) q)) zero (x (ix2 r q)) := by
  show FloatOps.addf
      (FloatOps.mulf (broadcastTo S8x65536 s broadcasts_S1x65536_S8x65536 (ix2 r q)) (FloatOps.ofBits .f32 0x00000000#32))
      (FloatOps.mulf (broadcastTo S8x65536 (subf (broadcast S1x65536 (FloatOps.ofBits .f32 0x3F800000#32)) s) broadcasts_S1x65536_S8x65536 (ix2 r q))
        (x (ix2 r q))) = _
  rw [broadcastTo_1b_ab_apply, broadcastTo_1b_ab_apply]
  rfl

/-! ## The output block -/

theorem hz : (![0, 0] : Fin 2 → Nat) = fun _ => 0 := funext fun a => by fin_cases a <;> rfl

/-- The body's stored value at `(r, q)` is the shifter on column `q` of the two loaded blocks. -/
theorem pay_apply (x0 : Vec F S8x65536 .f32) (x1 : Vec F S4x65536 .f32) :
    k0_pay1 (k0_pay3 x1) (k0_pay4 x1) (k0_pay5 x0 x1) (k0_pay6 x0 x1) (k0_pay7 (F := F)) (ix2 r q)
      = barrel (fun j => x1 (ix2 j q)) (fun r' => x0 (ix2 r' q)) r := by
  rw [pay_eq, finalArr_apply, selRow0_apply, stageArr_apply r q 4 (by norm_num), selRow1_apply]
  unfold barrel shifts
  refine congrArg (mux (x1 (ix2 (0 : Fin 4) q)) zero) (stage_congr 4 _ (fun r2 => ?_) r)
  rw [stageArr_apply r2 q 2 (by norm_num), selRow2_apply]
  refine stage_congr 2 _ (fun r1 => ?_) r2
  rw [stageArr_apply r1 q 1 (by norm_num), selRow3_apply, shapeCast_self]

/-- What the body leaves in the output window's buffer, at `(r, q)`: the shifter on column `q` of the input blocks. -/
theorem out_apply (x0 : Vec F S8x65536 .f32) (x1 : Vec F S4x65536 .f32) :
    out0_2 x0 x1 (ix2 r q) = barrel (fun j => x1 (ix2 j q)) (fun r' => x0 (ix2 r' q)) r := by
  unfold out0_2
  rw [View.canon_unit_zero hz]
  simp only [View.ld_unit_zero (S := S8x65536) hz, View.ld_unit_zero (S := S4x65536) hz]
  exact pay_apply r q x0 x1

/-- The output window's buffer after the body is `BarrelShift.resultT` of the two input blocks. -/
theorem out_eq (x0 : Vec F S8x65536 .f32) (x1 : Vec F S4x65536 .f32) : out0_2 x0 x1 = resultT x0 x1 := by
  funext i
  obtain ⟨r, q, rfl⟩ : ∃ (r : Fin 8) (q : Fin 65536), i = ix2 r q := ⟨i 0, i 1, eq_ix2 i⟩
  exact out_apply r q x0 x1

end Cert.KernelIdeal.Columns

end
-- ==== Proof.KernelBlocks.lean ====
/-
  From the kernel's blocks to its whole output array.

  The grid has 64 points. At point `t` each of the three windows holds columns `65536·t … 65536·t + 65535` of its array,
  all rows: the data `[8, N]`, the selects `[4, N]`, the output `[8, N]`. The shifter acts on a column at a time, so the
  block point `t` writes back is the restriction to those columns of ONE whole-array function, `BarrelShift.resultT` of the
  data and select arrays as the region finds them; the 64 column ranges tile the array, so after the run the output
  array is that function.
-/
import proofs.«154739_j23407571764122_1_alg».proof.Proof.KernelColumns

set_option maxRecDepth 16384

noncomputable section

namespace Cert.KernelIdeal.Blocks

open Cert.KernelIdeal Cert.KernelIdeal.Gen Cert.KernelIdeal.Columns
open Idealize.ShloMosaic Idealize.ShloMosaic.TcCoe Idealize.ShloMosaic.ValueIdx BarrelShift
open Idealize.SL Idealize.SL.Sem
open Idealize.ShloMosaic.Pipeline (Dat Cfg Window)

variable {F : FTy → Type} [FloatOps F]
variable (m : (ℓ : Loc nD τ sig) → Buf (Elt F) ℓ)

/-! ## The shifter on a block of columns -/

/-- If a data block and a select block hold, at column `q`, what the data and select arrays hold at the column of
    the array index `i`, and `i` is in row `r`, then the shifter on the blocks at `(r, q)` is the shifter on the arrays
    at `i`: an entry depends on its own column only. -/
theorem resultT_block {N T : Nat} (X : (⟨2, ![8, N]⟩ : Shape).Idx → F .f32) (S : (⟨2, ![4, N]⟩ : Shape).Idx → F .f32)
    (xb : (⟨2, ![8, T]⟩ : Shape).Idx → F .f32) (sb : (⟨2, ![4, T]⟩ : Shape).Idx → F .f32)
    (r : Fin 8) (q : Fin T) (i : (⟨2, ![8, N]⟩ : Shape).Idx) (h0 : (i 0).val = r.val)
    (hx : ∀ r' : Fin 8, xb (ix2 r' q) = X (ix2 r' (i 1))) (hs : ∀ k : Fin 4, sb (ix2 k q) = S (ix2 k (i 1))) :
    resultT xb sb (ix2 r q) = resultT X S i := by
  have e : i 0 = r := Fin.ext h0
  show barrel (fun k => sb (ix2 k q)) (fun r' => xb (ix2 r' q)) r
    = barrel (fun k => S (ix2 k (i 1))) (fun r' => X (ix2 r' (i 1))) (i 0)
  rw [e, funext hx, funext hs]

/-! ## The windows' index maps -/

/-- The printed index maps, decided over the 64 points: every window is at block row 0 and block column `t`. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The data window's block at point `t` is columns `65536·t + ·` of the data array. -/
theorem iblk0_apply (c : Dev nD) (t : Fin cfg0.N) (x : S8x65536.Idx) (k : S8x4194304.Idx)
    (hk0 : (k 0).val = (x 0).val) (hk1 : (k 1).val = t.val * 65536 + (x 1).val) :
    (iblk m c 0 t : Vec F S8x65536 .f32) x = (V m c main_v0 : S8x4194304.Idx → Elt F .f32) k := by
  obtain ⟨e0, e1, -, -, -, -⟩ := idx_facts t
  unfold iblk
  rw [View.read_apply]
  show V m c main_v0 _ = V m c main_v0 _
  refine congrArg (V m c main_v0 : S8x4194304.Idx → Elt F .f32) (funext fun a => Fin.ext ?_)
  match a with
  | ⟨0, _⟩ => show win0_0.index t (0 : Fin 2) * 8 + 1 * (x 0).val = (k 0).val; rw [e0, hk0]; omega
  | ⟨1, _⟩ => show win0_0.index t (1 : Fin 2) * 65536 + 1 * (x 1).val = (k 1).val; rw [e1, hk1]; omega

/-- The select window's block at point `t` is columns `65536·t + ·` of the select array. -/
theorem iblk1_apply (c : Dev nD) (t : Fin cfg0.N) (x : S4x65536.Idx) (k : S4x4194304.Idx)
    (hk0 : (k 0).val = (x 0).val) (hk1 : (k 1).val = t.val * 65536 + (x 1).val) :
    (iblk m c 1 t : Vec F S4x65536 .f32) x = (V m c main_v1 : S4x4194304.Idx → Elt F .f32) k := by
  obtain ⟨-, -, e2, e3, -, -⟩ := idx_facts t
  unfold iblk
  rw [View.read_apply]
  show V m c main_v1 _ = V m c main_v1 _
  refine congrArg (V m c main_v1 : S4x4194304.Idx → Elt F .f32) (funext fun a => Fin.ext ?_)
  match a with
  | ⟨0, _⟩ => show win0_1.index t (0 : Fin 2) * 4 + 1 * (x 0).val = (k 0).val; rw [e2, hk0]; omega
  | ⟨1, _⟩ => show win0_1.index t (1 : Fin 2) * 65536 + 1 * (x 1).val = (k 1).val; rw [e3, hk1]; omega

/-! ## What a point writes back -/

/-- The shifter on point `t`'s input blocks, at a block index, is the shifter on the whole arrays at the array index
    the output window's block puts it at. -/
theorem block_eq (c : Dev nD) (t : Fin cfg0.N) (y : S8x65536.Idx) :
    resultT (iblk m c 0 t : Vec F S8x65536 .f32) (iblk m c 1 t : Vec F S4x65536 .f32) y
      = (resultT (V m c main_v0 : S8x4194304.Idx → Elt F .f32) (V m c main_v1 : S4x4194304.Idx → Elt F .f32) : S8x4194304.Idx → Elt F .f32)
          (((cfg0.win 2).blk t).view.emb y) := by
  obtain ⟨r, q, rfl⟩ : ∃ (r : Fin 8) (q : Fin 65536), y = ix2 r q := ⟨y 0, y 1, eq_ix2 y⟩
  obtain ⟨-, -, -, -, e4, e5⟩ := idx_facts t
  refine resultT_block (V m c main_v0 : S8x4194304.Idx → Elt F .f32) (V m c main_v1 : S4x4194304.Idx → Elt F .f32)
    (iblk m c 0 t : Vec F S8x65536 .f32) (iblk m c 1 t : Vec F S4x65536 .f32) r q _ ?_ (fun r' => ?_) (fun k => ?_)
  · show win0_2.index t (0 : Fin 2) * 8 + 1 * r.val = r.val
    rw [e4]; omega
  · refine iblk0_apply m c t (ix2 r' q) _ rfl ?_
    show win0_2.index t (1 : Fin 2) * 65536 + 1 * q.val = t.val * 65536 + q.val
    rw [e5]; omega
  · refine iblk1_apply m c t (ix2 k q) _ rfl ?_
    show win0_2.index t (1 : Fin 2) * 65536 + 1 * q.val = t.val * 65536 + q.val
    rw [e5]; omega

/-- WHAT POINT `t` WRITES BACK is block `t` of the shifter on the whole data and select arrays as the region finds them. -/
theorem flushed_eq (c : Dev nD) (t : Fin cfg0.N) :
    (dats m 0 c).flushed 2 t
      = ((cfg0.win 2).blk t).view.read (Elt F) (resultT (V m c main_v0 : S8x4194304.Idx → Elt F .f32) (V m c main_v1 : S4x4194304.Idx → Elt F .f32)) := by
  show (cfg0.win 2).cut (grid0.coords t) ((dats m 0 c).after 2 t) = _
  rw [after0_2, out_eq]
  funext j
  exact block_eq m c t j

/-! ## The cover -/

/-- An index of the output array is in point `t`'s block iff each coordinate is in the block's range on its axis. -/
theorem mem_blk (t : Fin cfg0.N) (i : S8x4194304.Idx) :
    i ∈ ((cfg0.win 2).blk t).view.set ↔ ∀ a : Fin 2, win0_2.index t a * S8x65536.size a ≤ (i a).val ∧ (i a).val < win0_2.index t a * S8x65536.size a + S8x65536.size a := by
  show i ∈ ((View.whole main_v2).slice (win0_2.rect t)).set ↔ _
  rw [View.set_slice_whole, Rect.mem_set_unit]
  exact Iff.rfl

/-- Every index of the output array is in the block of the point its column falls in, `column / 65536`. -/
theorem cover (i : S8x4194304.Idx) :
    ∃ t : Fin cfg0.N, (cfg0.win 2).flush t = true ∧ i ∈ ((cfg0.win 2).blk t).view.set := by
  have hi0 : (i 0).val < 8 := (i 0).isLt
  have hi1 : (i 1).val < 4194304 := (i 1).isLt
  have hN : cfg0.N = 64 := N_0
  obtain ⟨t, ht⟩ : ∃ t : Fin cfg0.N, t.val = (i 1).val / 65536 :=
    ⟨⟨(i 1).val / 65536, lt_of_lt_of_eq (by omega : (i 1).val / 65536 < 64) hN.symm⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 8 ≤ (i 0).val ∧ (i 0).val < win0_2.index t (0 : Fin 2) * 8 + 8
    rw [e4]; omega
  | ⟨1, _⟩ =>
    show win0_2.index t (1 : Fin 2) * 65536 ≤ (i 1).val ∧ (i 1).val < win0_2.index t (1 : Fin 2) * 65536 + 65536
    rw [e5, ht]; omega

/-! ## The output array after the run -/

/-- THE OUTPUT ARRAY after the run: the shifter on the data and select arrays as the region finds them, column by column. -/
theorem final (c : Dev nD) :
    (dats m 0 c).arrAt 2 cfg0.N
      = resultT (V m c main_v0 : S8x4194304.Idx → Elt F .f32) (V m c main_v1 : S4x4194304.Idx → Elt F .f32) :=
  (dats m 0 c).arrAt_eq_of_cover 2 _ (fun t _ => flushed_eq m c t) cover

end Cert.KernelIdeal.Blocks

end
-- ==== Proof.KernelRun.lean ====
/-
  The kernel's run, read: its result array is the barrel shifter applied to each row of its arguments.

  Around the region the program transposes: the data `[N, 8]` and the selects `[N, 4]` are transposed before it (one item
  per column), and the region's output `[8, N]` is transposed back after it. The region's output is the column-layout
  shifter on what it finds (`Blocks.final`), so the result is the row-layout shifter on the arguments
  (`BarrelShift.transpose_resultT`).
-/
import proofs.«154739_j23407571764122_1_alg».proof.Proof.KernelBlocks
import Idealize.ShloMosaic.Lib.StableHlo.Run

set_option maxRecDepth 16384

noncomputable section

namespace Cert.KernelIdeal.Run

open Cert.KernelIdeal Cert.KernelIdeal.Gen Cert.KernelIdeal.Blocks
open Idealize.ShloMosaic Idealize.ShloMosaic.TcCoe Idealize.ShloMosaic.ValueIdx Idealize.ShloMosaic.StableHlo BarrelShift
open Idealize.SL Idealize.SL.Sem

variable {F : FTy → Type} [FloatOps F]
variable (m : (ℓ : Loc nD τ sig) → Buf (Elt F) ℓ) (ρ : Dev nD → PrngReg)

/-- The data array as the region finds it: the first argument transposed. -/
theorem V_main_v0 (c : Dev nD) :
    (V m c main_v0 : S8x4194304.Idx → Elt F .f32)
      = transpose S8x4194304 [1, 0] (m ((c : Thread nD τ).loc main_arg0)) transposes_S4194304x8_S8x4194304_1_0 := by
  show StableHlo.after hostOps0 (fun b => m (c, b)) (Proc.devRef .tc main_v0) = _
  after_results

/-- The select array as the region finds it: the second argument transposed. -/
theorem V_main_v1 (c : Dev nD) :
    (V m c main_v1 : S4x4194304.Idx → Elt F .f32)
      = transpose S4x4194304 [1, 0] (m ((c : Thread nD τ).loc main_arg1)) transposes_S4194304x4_S4x4194304_1_0 := by
  show StableHlo.after hostOps0 (fun b => m (c, b)) (Proc.devRef .tc main_v1) = _
  after_results

/-- The result buffer after the line that follows the region: the region's output array transposed. -/
theorem tail_main_v3 (c : Dev nD) :
    Pipeline.afterTail₀ cfgs (dats m) 0 (V0 m) [hostOps1] c main_v3
      = transpose S4194304x8 [1, 0] ((dats m 0 c).arrAt 2 cfg0.N) transposes_S8x4194304_S4194304x8_1_0 := by
  unfold Pipeline.afterTail₀
  show StableHlo.after hostOps1 _ (Proc.devRef .tc main_v3) = _
  after_results
  exact congrArg (fun z => transpose S4194304x8 [1, 0] z transposes_S8x4194304_S4194304x8_1_0)
    (Pipeline.withArrays_arr spec0 launch0.win.arr_inj c (V0 m c) (fun w => (dats m 0 c).arrAt w cfg0.N) 2)

/-- The result buffer after the whole program: the row-layout shifter on the two arguments. -/
theorem result_main_v3 (c : Dev nD) :
    Pipeline.afterTail₀ cfgs (dats m) 0 (V0 m) [hostOps1] c main_v3
      = result (m ((c : Thread nD τ).loc main_arg0)) (m ((c : Thread nD τ).loc main_arg1)) := by
  rw [tail_main_v3, final, V_main_v0, V_main_v1]
  exact transpose_resultT _ _ _ _ _

/-- On every device, from any memory with zero counters: every weakly fair execution of the program terminates, with
    the result array the barrel shifter on each row of the arguments and the arguments unchanged. -/
theorem run : θ_run defs (onTc (τ := τ) (main (F := F))) ⟨m, fun _ => 0, ρ⟩ fun r => ∀ c : Dev nD,
      r.2.mem ((c.tc : Thread nD τ).loc main_v3)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result_main_v3 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Run

end
-- ==== Proof.lean ====
/-
  An 8-position barrel shifter, a Pallas kernel against its jnp reference: equal results over the extended reals.

  Each item is a row of 8 data values (position 0 the most significant) and 4 select values. A select `s` chooses
  arithmetically, `s · a + (1 - s) · b`. The row is shifted toward the higher positions by 1 under select 3, by 2 under
  select 2, by 4 under select 1 (zeros entering), and replaced by zero under select 0 (`BarrelShift.barrel`, Proof/Spec.lean).

  The reference does this on the arrays as given, one item per row: a select is a one-column slice broadcast along the
  row, a shift the concatenation of columns of zeros with the row's first columns (Proof/ReferenceRows.lean). The kernel
  transposes both arrays first, one item per COLUMN, and works on blocks of 65536 columns: a select is a row of the select
  block broadcast down the rows, a shift a cyclic rotation of the rows whose wrapped-around rows are zeroed by a select on
  the row index (Proof/KernelColumns.lean); the 64 blocks tile the output (Proof/KernelBlocks.lean), which is transposed
  back (Proof/KernelRun.lean). The two spellings of a shift are one function of the row (Proof/LibShiftRows.lean).

  At every entry the two programs compute the SAME tree of scalar products, sums and differences on the same zero and
  one words, operand for operand; only the layout differs. So no law of arithmetic joins the two sides, nothing needs
  to be finite, and the precondition is never opened. The ideal pass rewrote nothing, so `preserves` is `True`. The
  frames are the generated ones; the reference's is its generated run with the result dropped.
-/
import proofs.«154739_j23407571764122_1_alg».proof.Defs
import proofs.«154739_j23407571764122_1_alg».proof.Proof.Gen.Kernel
import proofs.«154739_j23407571764122_1_alg».proof.Proof.Gen.Kernel.Skeleton
import proofs.«154739_j23407571764122_1_alg».proof.Proof.Gen.Kernel.Launch
import proofs.«154739_j23407571764122_1_alg».proof.Proof.Gen.Kernel.Points
import proofs.«154739_j23407571764122_1_alg».proof.Proof.Gen.Kernel.Frame
import proofs.«154739_j23407571764122_1_alg».proof.Proof.Gen.KernelIdeal
import proofs.«154739_j23407571764122_1_alg».proof.Proof.Gen.KernelIdeal.Skeleton
import proofs.«154739_j23407571764122_1_alg».proof.Proof.Gen.KernelIdeal.Launch
import proofs.«154739_j23407571764122_1_alg».proof.Proof.Gen.KernelIdeal.Points
import proofs.«154739_j23407571764122_1_alg».proof.Proof.Gen.KernelIdeal.Frame
import proofs.«154739_j23407571764122_1_alg».proof.Proof.Gen.ReferenceIdeal
import proofs.«154739_j23407571764122_1_alg».proof.Proof.Gen.Pre_finite_inputs
import proofs.«154739_j23407571764122_1_alg».proof.Proof.Gen.ReferenceIdeal.Run
import proofs.«154739_j23407571764122_1_alg».proof.Proof.Gen.ReferenceIdeal.Read
import proofs.«154739_j23407571764122_1_alg».proof.Proof.ReferenceRows
import proofs.«154739_j23407571764122_1_alg».proof.Proof.KernelRun
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the barrel shifter applied to each row of the arguments: the kernel through its
    transposed blocks, the reference stage by stage. -/
theorem algebraic : Cert.algebraic_KernelIdeal_ReferenceIdeal := by
  intro m ρ m' ρ' _ hagree
  refine ⟨_, Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.ReferenceIdeal.Rows.out_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
